-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x512 : Shape := ⟨2, ![512, 512]⟩
abbrev S512 : Shape := ⟨1, ![512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x4096x512 .f32) (main_arg1 : FVec F S512x512 .f32) (main_arg2 : FVec F S512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x4096x512 : Shape := ⟨3, ![32, 4096, 512]⟩
abbrev S512x512 : Shape := ⟨2, ![512, 512]⟩
abbrev S512 : Shape := ⟨1, ![512]⟩
abbrev S131072x512 : Shape := ⟨2, ![131072, 512]⟩
abbrev S1x512 : Shape := ⟨2, ![1, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S131072x512, .f32⟩
  | .hbm, ⟨4, _⟩ => ⟨S512x512, .f32⟩
  | .hbm, ⟨5, _⟩ => ⟨S1x512, .f32⟩
  | .hbm, ⟨6, _⟩ => ⟨S131072x512, .f32⟩
  | .hbm, ⟨7, _⟩ => ⟨S32x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4096x512_S131072x512 : S32x4096x512.ShapeCasts S131072x512
  transposes_S512x512_S512x512_1_0 : S512x512.Transposes [1, 0] S512x512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S131072x512_S32x4096x512 : S131072x512.ShapeCasts S32x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S32x4096x512, .f32⟩
  | .hbm, ⟨4, _⟩ => ⟨S1x1x512, .f32⟩
  | .hbm, ⟨5, _⟩ => ⟨S32x4096x512, .f32⟩
  | .hbm, ⟨6, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  dot_S32x4096x512_S512x512_S32x4096x512_2_1_01_0_n_n_wf : DotDims.WF S32x4096x512 S512x512 S32x4096x512 [2] [1] [0, 1] [0] [] []

variable [Facts₀]

def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Body.lean ====
/-
  One entry of the block the kernel body stores.

  At a grid point the body holds a 2048×512 block X of the row matrix, the whole 512×512 transposed weight Wt and
  the 1×512 bias row B. It narrows X and Wt to bf16 (no change of value on the extended reals), multiplies them
  into an accumulator of zeros, and adds the bias row repeated down the 2048 rows. So entry (p, q) of what it
  stores is  (∑ k, X (p, k) · Wt (k, q)) + B (0, q).
-/
import proofs.«155386_j6571299963235_2_alg».proof.Proof.Gen.KernelIdeal.Skeleton
import proofs.«155386_j6571299963235_2_alg».proof.Proof.LibContractPlain
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The printed contraction record is the plain M×K by K×N one. -/
theorem dot_plain : dot_S2048x512_S512x512_S2048x512_1_0_0_1_n_n = DotDims.plain 2048 512 512 := rfl

/-- Entry (p, q) of the stored block: the row p of X against the column q of Wt, plus the bias at q. -/
theorem stored_apply (x0 : Vec Ideal S2048x512 .f32) (x1 : Vec Ideal S512x512 .f32) (x2 : Vec Ideal S1x512 .f32)
    (p : Fin 2048) (q : Fin 512) :
    k0_pay1 (F := Ideal) x0 x1 x2 (ix2 p q)
      = (∑ k : Fin 512, x0 (ix2 p k) * x1 (ix2 k q)) + x2 (ix2 (0 : Fin 1) q) := by
  unfold k0_pay1
  rw [addf_apply, broadcastTo_1b_ab_apply, shapeCast_self, shapeCast_self, shapeCast_self,
    Cert.Lib.ContractPlain.matmulZero_apply _ dot_plain]
  rfl

end Cert.KernelIdeal.Body

end
-- ==== Proof.Blocks.lean ====
/-
  From the blocks to the whole matrix.

  The region works on the row matrix X : [131072, 512], the transposed weight Wt : [512, 512] and the bias row
  B : [1, 512] as it finds them. Grid point t takes rows 2048·t … 2048·t + 2047 of X, the whole of Wt and of B,
  and writes back rows 2048·t … 2048·t + 2047 of the output. Entry (r, q) of what it writes is
  (∑ k, X (r, k) · Wt (k, q)) + B (0, q), which does not depend on how the rows were cut into blocks; the 64 row
  blocks tile the output, so after the region the output is that one function of X, Wt and B.
-/
import proofs.«155386_j6571299963235_2_alg».proof.Proof.Gen.KernelIdeal.Frame
import proofs.«155386_j6571299963235_2_alg».proof.Proof.Body
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The rows of X against the columns of Wt, plus the bias row: the region's output as one function. -/
def rowsOut (X : S131072x512.Idx → EReal) (Wt : S512x512.Idx → EReal) (B : S1x512.Idx → EReal) :
    S131072x512.Idx → EReal :=
  fun j => (∑ k : Fin 512, X (ix2 (j 0) k) * Wt (ix2 k (j 1))) + B (ix2 (0 : Fin 1) (j 1))

theorem zero_offsets : (![0, 0] : Fin 2 → Nat) = fun _ => 0 := funext fun a => by fin_cases a <;> rfl

/-- The stored block at any index of the block shape. -/
theorem stored_at (x0 : Vec Ideal S2048x512 .f32) (x1 : Vec Ideal S512x512 .f32) (x2 : Vec Ideal S1x512 .f32)
    (j : S2048x512.Idx) :
    k0_pay1 (F := Ideal) x0 x1 x2 j
      = (∑ k : Fin 512, x0 (ix2 (j 0) k) * x1 (ix2 k (j 1))) + x2 (ix2 (0 : Fin 1) (j 1)) := by
  rw [eq_ix2 j]
  exact Body.stored_apply x0 x1 x2 (j 0) (j 1)

/-- Where the four windows' blocks sit at point t: the row-matrix block and the output block are row block t;
    the weight and the bias are taken whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `rowsOut` of the arrays as the region finds them. -/
theorem flushed_eq (c : Dev nD) (t : Fin cfg0.N) :
    (dats m 0 c).flushed 3 t
      = ((cfg0.win 3).blk t).view.read (Elt Ideal) (rowsOut (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S2048x512) zero_offsets, View.ld_unit_zero (S := S512x512) zero_offsets,
    View.ld_unit_zero (S := S1x512) zero_offsets]
  obtain ⟨e00, e01, e10, e11, e20, e21, e30, e31⟩ := block_indices t
  funext j
  show k0_pay1 (F := Ideal) (iblk m c 0 t) (iblk m c 1 t) (iblk m c 2 t) j
    = rowsOut (V m c main_v0) (V m c main_v1) (V m c main_v2) (((cfg0.win 3).blk t).view.emb j)
  refine (stored_at (iblk m c 0 t) (iblk m c 1 t) (iblk m c 2 t) j).trans ?_
  unfold rowsOut
  have hj0 : (j 0).val < 2048 := (j 0).isLt
  have hj1 : (j 1).val < 512 := (j 1).isLt
  have hX : ∀ k : Fin 512, iblk m c 0 t (ix2 (j 0) k)
      = V m c main_v0 (ix2 ((((cfg0.win 3).blk t).view.emb j) 0) k) := fun k => by
    show V m c main_v0 (((cfg0.win 0).blk t).view.emb (ix2 (j 0) k)) = _
    refine congrArg _ (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 512 + 1 * k.val = k.val
      omega
  have hW : ∀ k : Fin 512, iblk m c 1 t (ix2 k (j 1))
      = V m c main_v1 (ix2 k ((((cfg0.win 3).blk t).view.emb j) 1)) := fun k => by
    show V m c main_v1 (((cfg0.win 1).blk t).view.emb (ix2 k (j 1))) = _
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 512 + 1 * (j 1).val = win0_3.index t (1 : Fin 2) * 512 + 1 * (j 1).val
      omega
  have hB : iblk m c 2 t (ix2 (0 : Fin 1) (j 1))
      = V m c main_v2 (ix2 (0 : Fin 1) ((((cfg0.win 3).blk t).view.emb j) 1)) := by
    show V m c main_v2 (((cfg0.win 2).blk t).view.emb (ix2 (0 : Fin 1) (j 1))) = _
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 512 + 1 * (j 1).val = win0_3.index t (1 : Fin 2) * 512 + 1 * (j 1).val
      omega
  rw [hB]
  exact congrArg (· + _) (Finset.sum_congr rfl fun k _ => by rw [hX k, hW k])

/-- An index of the output is in point t's block iff each coordinate is in the block's range on its axis. -/
theorem mem_blk (t : Fin cfg0.N) (i : S131072x512.Idx) :
    i ∈ ((cfg0.win 3).blk t).view.set
      ↔ ∀ a : Fin 2, win0_3.index t a * S2048x512.size a ≤ (i a).val
          ∧ (i a).val < win0_3.index t a * S2048x512.size a + S2048x512.size a := by
  show i ∈ ((View.whole main_v3).slice (win0_3.rect t)).set ↔ _
  rw [View.set_slice_whole, Rect.mem_set_unit]
  exact Iff.rfl

/-- Row r of the output lies in the block of point r / 2048, and every point writes back. -/
theorem cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hlt : (i 0).val / 2048 < cfg0.N := lt_of_lt_of_eq (by omega : (i 0).val / 2048 < 64) N_0.symm
  obtain ⟨-, -, -, -, -, -, e30, e31⟩ := block_indices ⟨(i 0).val / 2048, hlt⟩
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    rw [e31]
    omega

/-- The output array after the region: `rowsOut` of the arrays as the region finds them. -/
theorem final (c : Dev nD) :
    (dats m 0 c).arrAt 3 cfg0.N = rowsOut (V m c main_v0) (V m c main_v1) (V m c main_v2) :=
  (dats m 0 c).arrAt_eq_of_cover 3 _ (fun t _ => flushed_eq m c t) cover

end Cert.KernelIdeal.Blocks

end
-- ==== Proof.LibMergeRows.lean ====
/-
  Two leading axes merged into one by a shape cast, and split again.

  An array of shape [a, b, c] and the matrix of shape [a·b, c] with the same elements in the same row-major order
  are related by  row = i·b + j : entry (i, j, k) of the array is entry (i·b + j, k) of the matrix. Both casts
  are read here at coordinates, with the row given by that equation.
-/
import Idealize.ShloMosaic.Lib.ValueIdx
import Idealize.ShloMosaic.Lib.Pipeline.Value

noncomputable section

namespace Cert.Lib.MergeRows

open Idealize.ShloMosaic Idealize.ShloMosaic.ValueIdx

variable {α : Type}

/-- An [a, b, c] array cast to [n, c] reads, at (r, k) with r = i·b + j, the array at (i, j, k). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] matrix cast to [a, b, c] reads, at (i, j, k), the matrix at (r, k) with r = i·b + j. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.Lib.MergeRows

end
-- ==== Proof.Spec.lean ====
/-
  The function both programs compute.

  For x : [32, 4096, 512], a weight w : [512, 512] stored as (output feature, input feature) and a bias b : [512],
  the linear layer's output at (batch β, position t, output feature o) is

      (∑ d, x (β, t, d) · w (o, d)) + b o

  on the extended reals: a finite sum of products and one more addition, in this order of the 512 summands.
-/
import Idealize.ShloMosaic.PureOps.Ideal
import Idealize.ShloMosaic.Lib.ValueIdx

noncomputable section

namespace Cert.Spec

open Idealize.ShloMosaic Idealize.ShloMosaic.ValueIdx

/-- The linear layer, entry by entry. -/
def linear (x : (⟨3, ![32, 4096, 512]⟩ : Shape).Idx → EReal) (w : (⟨2, ![512, 512]⟩ : Shape).Idx → EReal)
    (b : (⟨1, ![512]⟩ : Shape).Idx → EReal) : (⟨3, ![32, 4096, 512]⟩ : Shape).Idx → EReal :=
  fun i => (∑ d : Fin 512, x (ix3 (i 0) (i 1) d) * w (ix2 (i 2) d)) + b (ix1 (i 2))

end Cert.Spec

end
-- ==== Proof.Layout.lean ====
/-
  The kernel's re-layouts around the region give the linear layer.

  Before the region the kernel flattens x to the row matrix X (row β·4096 + t holds x (β, t, ·)), transposes the
  weight (Wt (d, o) = w (o, d)) and lays the bias as the row B (B (0, o) = b o). After the region it splits the rows
  of the output again. So entry (β, t, o) of the result is entry (β·4096 + t, o) of the region's output,
  (∑ d, X (β·4096 + t, d) · Wt (d, o)) + B (0, o) = (∑ d, x (β, t, d) · w (o, d)) + b o.
-/
import proofs.«155386_j6571299963235_2_alg».proof.Proof.Blocks
import proofs.«155386_j6571299963235_2_alg».proof.Proof.LibMergeRows
import proofs.«155386_j6571299963235_2_alg».proof.Proof.Spec
import Idealize.ShloMosaic.Lib.ValueLayout

noncomputable section

namespace Cert.KernelIdeal.Layout

open Idealize.ShloMosaic Idealize.ShloMosaic.ValueIdx
open Cert.KernelIdeal

/-- Flatten, transpose, lay the bias as a row; take the rows against the columns plus the bias row; split the rows:
    the linear layer. -/
theorem relaid_eq_linear (x : S32x4096x512.Idx → EReal) (w : S512x512.Idx → EReal) (b : S512.Idx → EReal)
    (h1 : S32x4096x512.ShapeCasts S131072x512) (h2 : S512x512.Transposes [1, 0] S512x512)
    (h3 : S512.ShapeCasts S1x512) (h4 : S131072x512.ShapeCasts S32x4096x512) :
    shapeCast S32x4096x512
        (Blocks.rowsOut (shapeCast S131072x512 x h1) (transpose S512x512 [1, 0] w h2) (shapeCast S1x512 b h3)) h4
      = Cert.Spec.linear x w b := by
  funext i
  obtain ⟨β, t, o, rfl⟩ : ∃ (β : Fin 32) (t : Fin 4096) (o : Fin 512), i = ix3 β t o := ⟨i 0, i 1, i 2, eq_ix3 i⟩
  have hr : β.val * 4096 + t.val < 131072 := by
    have := β.isLt; have := t.isLt; omega
  rw [Cert.Lib.MergeRows.shapeCast_nc_abc_apply _ h4 β t o ⟨β.val * 4096 + t.val, hr⟩ rfl]
  show (∑ k : Fin 512, shapeCast S131072x512 x h1 (ix2 (⟨β.val * 4096 + t.val, hr⟩ : Fin 131072) k)
        * transpose S512x512 [1, 0] w h2 (ix2 k o)) + shapeCast S1x512 b h3 (ix2 (0 : Fin 1) o)
      = (∑ d : Fin 512, x (ix3 β t d) * w (ix2 o d)) + b (ix1 o)
  rw [shapeCast_a_1a_apply]
  refine congrArg (· + _) (Finset.sum_congr rfl fun k _ => ?_)
  rw [Cert.Lib.MergeRows.shapeCast_abc_nc_apply x h1 β t k ⟨β.val * 4096 + t.val, hr⟩ rfl, transpose_ix2_apply]

end Cert.KernelIdeal.Layout

end
-- ==== Proof.Run.lean ====
/-
  The idealized kernel's run, with its result named.

  Before the region the host lines flatten x to the row matrix, transpose the weight and lay the bias as a row;
  the region leaves in its output the rows against the columns plus the bias row (the 64 row blocks tile it); the
  one host line after the region splits the rows into (batch, position) again. Read through, the result array
  ends holding the linear layer of the three arguments, and no host line or block transfer writes an argument.
-/
import proofs.«155386_j6571299963235_2_alg».proof.Proof.Gen.KernelIdeal.Frame
import proofs.«155386_j6571299963235_2_alg».proof.Proof.Blocks
import proofs.«155386_j6571299963235_2_alg».proof.Proof.Layout
import Idealize.ShloMosaic.Lib.StableHlo.Run

noncomputable section

namespace Cert.KernelIdeal.Run

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The region finds the row matrix: x with its two leading axes merged. -/
theorem entry_rows (c : Dev nD) : (V m c main_v0 : S131072x512.Idx → EReal)
    = shapeCast S131072x512 (m ((c : Thread nD τ).loc main_arg0)) Gen.shapeCasts_S32x4096x512_S131072x512 := by
  show StableHlo.after hostOps0 (fun b => m (c, b)) (Proc.devRef .tc main_v0) = _
  after_results
  rfl

/-- The region finds the weight transposed. -/
theorem entry_weight (c : Dev nD) : (V m c main_v1 : S512x512.Idx → EReal)
    = transpose S512x512 [1, 0] (m ((c : Thread nD τ).loc main_arg1)) Gen.transposes_S512x512_S512x512_1_0 := by
  show StableHlo.after hostOps0 (fun b => m (c, b)) (Proc.devRef .tc main_v1) = _
  after_results

/-- The region finds the bias as a one-row matrix. -/
theorem entry_bias (c : Dev nD) : (V m c main_v2 : S1x512.Idx → EReal)
    = shapeCast S1x512 (m ((c : Thread nD τ).loc main_arg2)) Gen.shapeCasts_S512_S1x512 := by
  show StableHlo.after hostOps0 (fun b => m (c, b)) (Proc.devRef .tc main_v2) = _
  after_results
  rfl

/-- What the host line after the region leaves in the result array: the region's output with its rows split,
    which is the linear layer of the arguments. -/
theorem result_eq_linear (c : Dev nD) :
    Pipeline.afterTail₀ cfgs (dats m) 0 (V0 m) [hostOps1] c main_v4
      = Cert.Spec.linear (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have e3 : Pipeline.withArrays (cfgs 0).spec c (V0 m c) (fun w => (dats m 0 c).arrAt w (cfgs 0).N)
        (Proc.devRef .tc main_v3)
      = Blocks.rowsOut (V m c main_v0) (V m c main_v1) (V m c main_v2) :=
    (Pipeline.withArrays_arr spec0 launch0.win.arr_inj c _ _ 3).trans (Blocks.final m c)
  show shapeCast S32x4096x512
      (Pipeline.withArrays (cfgs 0).spec c (V0 m c) (fun w => (dats m 0 c).arrAt w (cfgs 0).N) (Proc.devRef .tc main_v3))
      Gen.shapeCasts_S131072x512_S32x4096x512 = _
  rw [e3, entry_rows, entry_weight, entry_bias]
  exact Layout.relaid_eq_linear _ _ _ _ _ _ _

/-- Every weakly fair execution of the idealized kernel terminates, nothing faulting, with the result array at
    the linear layer of the arguments and the arguments unchanged. -/
theorem run : θ_run defs (onTc (τ := τ) (main (F := Ideal))) ⟨m, fun _ => 0, ρ⟩ (fun r => ∀ c : Dev nD,
      r.2.mem ((c.tc : Thread nD τ).loc main_v4)
        = Cert.Spec.linear (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference computes the linear layer.

  The reference contracts x's last axis with the weight's last axis, which at entry (β, t, o) is the sum over d of
  x (β, t, d) · w (o, d); it lays the bias out as [1, 1, 512], repeats it over the batch and the positions, so that
  entry (β, t, o) of the repeated bias is b o; and it adds the two.
-/
import proofs.«155386_j6571299963235_2_alg».proof.Proof.Gen.ReferenceIdeal.Read
import proofs.«155386_j6571299963235_2_alg».proof.Proof.Spec

noncomputable section

namespace Cert.ReferenceIdeal.RefValue

open Idealize.ShloMosaic Idealize.ShloMosaic.ValueIdx
open Cert.ReferenceIdeal Cert.ReferenceIdeal.Read

/-- The reference's last stage, as a function of the three arguments, is the linear layer. -/
theorem stage_eq_linear (x : S32x4096x512.Idx → EReal) (w : S512x512.Idx → EReal) (b : S512.Idx → EReal) :
    val_main_v3 (F := Ideal) x w b = Cert.Spec.linear x w b := by
  funext i
  have el : ∀ k : Fin 512, lidx_main_v0 i k = ix3 (i 0) (i 1) k := fun k =>
    funext fun a => Fin.ext (by match a with | ⟨0, _⟩ => rfl | ⟨1, _⟩ => rfl | ⟨2, _⟩ => rfl)
  have er : ∀ k : Fin 512, ridx_main_v0 i k = ix2 (i 2) k := fun k =>
    funext fun a => Fin.ext (by match a with | ⟨0, _⟩ => rfl | ⟨1, _⟩ => rfl)
  have eb : idx_main_v1 (idx_main_v2 i) = ix1 (i 2) :=
    funext fun a => Fin.ext (by match a with | ⟨0, _⟩ => rfl)
  rw [val_main_v3_apply, val_main_v0_apply, val_main_v2_apply, val_main_v1_apply]
  simp only [el, er, eb]
  rfl

end Cert.ReferenceIdeal.RefValue

end
-- ==== Proof.lean ====
/-
  The certificate of a linear layer  out = x · wᵀ + b  computed by a tiled kernel, against its einsum reference.

  Both idealized programs compute, at (batch β, position t, output feature o),
      (∑ d, x (β, t, d) · w (o, d)) + b o
  on the extended reals (Proof/Spec.lean). The kernel reaches it by flattening (batch, position) into 131072 rows,
  transposing the weight, multiplying 2048-row blocks on the matrix unit (the narrowing to bf16 changes no value
  on the extended reals; the accumulator starts at zero) and adding the bias row, then splitting the rows again
  (Proof/Body.lean, Blocks.lean, Layout.lean, Run.lean). The reference contracts the last axes directly and adds
  the repeated bias (Proof/RefValue.lean). The 512 products are summed over the same coordinate in the same
  order on both sides, so no law of arithmetic beyond rewriting the indices is used, and the finiteness of the
  inputs is never needed. The idealization rewrote no operation, so there is nothing to preserve.
-/
import proofs.«155386_j6571299963235_2_alg».proof.Defs
import proofs.«155386_j6571299963235_2_alg».proof.Proof.Gen.Kernel
import proofs.«155386_j6571299963235_2_alg».proof.Proof.Gen.Kernel.Skeleton
import proofs.«155386_j6571299963235_2_alg».proof.Proof.Gen.Kernel.Launch
import proofs.«155386_j6571299963235_2_alg».proof.Proof.Gen.Kernel.Points
import proofs.«155386_j6571299963235_2_alg».proof.Proof.Gen.Kernel.Frame
import proofs.«155386_j6571299963235_2_alg».proof.Proof.Gen.KernelIdeal
import proofs.«155386_j6571299963235_2_alg».proof.Proof.Gen.KernelIdeal.Skeleton
import proofs.«155386_j6571299963235_2_alg».proof.Proof.Gen.KernelIdeal.Launch
import proofs.«155386_j6571299963235_2_alg».proof.Proof.Gen.KernelIdeal.Points
import proofs.«155386_j6571299963235_2_alg».proof.Proof.Gen.KernelIdeal.Frame
import proofs.«155386_j6571299963235_2_alg».proof.Proof.Gen.ReferenceIdeal
import proofs.«155386_j6571299963235_2_alg».proof.Proof.Gen.ReferenceIdeal.Run
import proofs.«155386_j6571299963235_2_alg».proof.Proof.Gen.ReferenceIdeal.Read
import proofs.«155386_j6571299963235_2_alg».proof.Proof.Gen.Pre_finite_inputs
import proofs.«155386_j6571299963235_2_alg».proof.Proof.Run
import proofs.«155386_j6571299963235_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w and b, the idealized kernel and the idealized reference both end with the
    linear layer of those arguments in their result arrays. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.stage_eq_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
